-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S64 : Shape := ⟨1, ![64]⟩
abbrev S1200000 : Shape := ⟨1, ![1200000]⟩
abbrev S2x1200000 : Shape := ⟨2, ![2, 1200000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1200000 : S_.BroadcastsInDim S1200000 (![] : Fin 0 → Fin S1200000.rank)
  reducesTo_S1200000_S_d0 : S1200000.ReducesTo [0] S_
  bcast_S_S2x1200000 : S_.BroadcastsInDim S2x1200000 (![] : Fin 0 → Fin S2x1200000.rank)
  reducesTo_S2x1200000_S_d0_1 : S2x1200000.ReducesTo [0, 1] S_

variable [Facts]

def fn_part1 {F : FTy → Type} [FloatOps F] (main_arg4 : FVec F S2x1200000 .f32) (main_v13 : IVec S_ 1) (main_v16 : IVec S1200000 1) : IVec S_ 1 :=
  let main_c_5 : IVec S_ 1 := constantI S_ 1 1#1
  let main_v17 : IVec S_ 1 := (fun x v => Host.reduce IntOp.andi x v reducesTo_S1200000_S_d0 h_S_) main_v16 main_c_5
  let main_v18 : IVec S_ 1 := andi main_v13 main_v17
  let main_v19 : FVec F S2x1200000 .f32 := Host.absf main_arg4
  let main_cst_6 : FVec F S_ .f32 := constant S_ .f32 0x7F800000#32
  let main_v20 : FVec F S2x1200000 .f32 := broadcastInDim S2x1200000 ![] bcast_S_S2x1200000 main_cst_6
  let main_v21 : IVec S2x1200000 1 := cmpf .olt main_v19 main_v20
  let main_c_7 : IVec S_ 1 := constantI S_ 1 1#1
  let main_v22 : IVec S_ 1 := (fun x v => Host.reduce IntOp.andi x v reducesTo_S2x1200000_S_d0_1 h_S_) main_v21 main_c_7
  let main_v23 : IVec S_ 1 := andi main_v18 main_v22
  main_v23

def fn {F : FTy → Type} [FloatOps F] (main_arg0 : FVec F S100000x64 .f32) (main_arg1 : FVec F S64x64 .f32) (main_arg2 : FVec F S64 .f32) (main_arg3 : FVec F S1200000 .f32) (main_arg4 : FVec F S2x1200000 .f32) (main_arg5 : IVec S1200000 32) (main_arg6 : IVec S1200000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1200000 .f32 := Host.absf main_arg3
  let main_cst_4 : FVec F S_ .f32 := constant S_ .f32 0x7F800000#32
  let main_v15 : FVec F S1200000 .f32 := broadcastInDim S1200000 ![] bcast_S_S1200000 main_cst_4
  let main_v16 : IVec S1200000 1 := cmpf .olt main_v14 main_v15
  fn_part1 (F := F) main_arg4 main_v13 main_v16
-- ==== Kernel.lean ====
abbrev S100000x64 : Shape := ⟨2, ![100000, 64]⟩
abbrev S64x64 : Shape := ⟨2, ![64, 64]⟩
abbrev S64 : Shape := ⟨1, ![64]⟩
abbrev S1200000 : Shape := ⟨1, ![1200000]⟩
abbrev S2x1200000 : Shape := ⟨2, ![2, 1200000]⟩
abbrev S1x64 : Shape := ⟨2, ![1, 64]⟩
abbrev S5000x64 : Shape := ⟨2, ![5000, 64]⟩
abbrev S1x1200000 : Shape := ⟨2, ![1, 1200000]⟩
abbrev S1x80000 : Shape := ⟨2, ![1, 80000]⟩
abbrev S2x80000 : Shape := ⟨2, ![2, 80000]⟩
abbrev S1200000x1 : Shape := ⟨2, ![1200000, 1]⟩
abbrev S_ : Shape := ⟨0, ![]⟩
abbrev S1200000x64 : Shape := ⟨2, ![1200000, 64]⟩

abbrev nBuf : Space → Nat
  | .hbm => 48
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S1200000, .f32⟩
  | .hbm, ⟨4, _⟩ => ⟨S2x1200000, .f32⟩
  | .hbm, ⟨5, _⟩ => ⟨S1200000, .i32⟩
  | .hbm, ⟨6, _⟩ => ⟨S1200000, .i32⟩
  | .hbm, ⟨7, _⟩ => ⟨S1x64, .f32⟩
  | .hbm, ⟨8, _⟩ => ⟨S100000x64, .f32⟩
  | .hbm, ⟨9, _⟩ => ⟨S1x1200000, .f32⟩
  | .hbm, ⟨10, _⟩ => ⟨S2x1200000, .f32⟩
  | .hbm, ⟨11, _⟩ => ⟨S1x1200000, .f32⟩
  | .hbm, ⟨12, _⟩ => ⟨S1200000, .f32⟩
  | .hbm, ⟨13, _⟩ => ⟨S1200000x1, .f32⟩
  | .hbm, ⟨14, _⟩ => ⟨S_, .i32⟩
  | .hbm, ⟨15, _⟩ => ⟨S1200000, .i32⟩
  | .hbm, ⟨16, _⟩ => ⟨S1200000, .i1⟩
  | .hbm, ⟨17, _⟩ => ⟨S_, .i32⟩
  | .hbm, ⟨18, _⟩ => ⟨S1200000, .i32⟩
  | .hbm, ⟨19, _⟩ => ⟨S1200000, .i32⟩
  | .hbm, ⟨20, _⟩ => ⟨S1200000, .i32⟩
  | .hbm, ⟨21, _⟩ => ⟨S1200000x1, .i32⟩
  | .hbm, ⟨22, _⟩ => ⟨S1200000x64, .f32⟩
  | .hbm, ⟨23, _⟩ => ⟨S1200000x64, .f32⟩
  | .hbm, ⟨24, _⟩ => ⟨S1200000x64, .f32⟩
  | .hbm, ⟨25, _⟩ => ⟨S_, .f32⟩
  | .hbm, ⟨26, _⟩ => ⟨S100000x64, .f32⟩
  | .hbm, ⟨27, _⟩ => ⟨S1200000x1, .i32⟩
  | .hbm, ⟨28, _⟩ => ⟨S100000x64, .f32⟩
  | .hbm, ⟨29, _⟩ => ⟨S1x1200000, .f32⟩
  | .hbm, ⟨30, _⟩ => ⟨S1200000, .f32⟩
  | .hbm, ⟨31, _⟩ => ⟨S1200000x1, .f32⟩
  | .hbm, ⟨32, _⟩ => ⟨S_, .i32⟩
  | .hbm, ⟨33, _⟩ => ⟨S1200000, .i32⟩
  | .hbm, ⟨34, _⟩ => ⟨S1200000, .i1⟩
  | .hbm, ⟨35, _⟩ => ⟨S_, .i32⟩
  | .hbm, ⟨36, _⟩ => ⟨S1200000, .i32⟩
  | .hbm, ⟨37, _⟩ => ⟨S1200000, .i32⟩
  | .hbm, ⟨38, _⟩ => ⟨S1200000, .i32⟩
  | .hbm, ⟨39, _⟩ => ⟨S1200000x1, .i32⟩
  | .hbm, ⟨40, _⟩ => ⟨S1200000x64, .f32⟩
  | .hbm, ⟨41, _⟩ => ⟨S1200000x64, .f32⟩
  | .hbm, ⟨42, _⟩ => ⟨S1200000x64, .f32⟩
  | .hbm, ⟨43, _⟩ => ⟨S_, .f32⟩
  | .hbm, ⟨44, _⟩ => ⟨S100000x64, .f32⟩
  | .hbm, ⟨45, _⟩ => ⟨S1200000x1, .i32⟩
  | .hbm, ⟨46, _⟩ => ⟨S100000x64, .f32⟩
  | .hbm, ⟨47, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S1x80000, .f32⟩
  | .local _ .vmem, ⟨7, _⟩ => ⟨S1x80000, .f32⟩
  | .local _ .vmem, ⟨8, _⟩ => ⟨S2x80000, .f32⟩
  | .local _ .vmem, ⟨9, _⟩ => ⟨S2x80000, .f32⟩
  | .local _ .vmem, ⟨10, _⟩ => ⟨S2x80000, .f32⟩
  | .local _ .vmem, ⟨11, _⟩ => ⟨S2x80000, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_1 : Ref sig .tc := ⟨.hbm, 32, rfl⟩
abbrev main_v22 : Ref sig .tc := ⟨.hbm, 33, rfl⟩
abbrev main_v23 : Ref sig .tc := ⟨.hbm, 34, rfl⟩
abbrev main_c_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![15], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1x80000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x80000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x80000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S1200000_S1x1200000 : S1200000.ShapeCasts S1x1200000
  inb_S1x80000_S1x80000_0_0 : ∀ a, (![0, 0] : Fin 2 → Nat) a + S1x80000.size a ≤ S1x80000.size a
  h_S1x80000 : 0 < S1x80000.numel
  shapeCasts_S1x80000_S1x80000 : S1x80000.ShapeCasts S1x80000
  broadcasts_S1x80000_S2x80000 : S1x80000.Broadcasts S2x80000
  inb_S2x80000_S2x80000_0_0 : ∀ a, (![0, 0] : Fin 2 → Nat) a + S2x80000.size a ≤ S2x80000.size a
  h_S2x80000 : 0 < S2x80000.numel
  slices_S2x1200000_S1x1200000_0_0 : S2x1200000.Slices ![0, 0] S1x1200000
  shapeCasts_S1x1200000_S1200000 : S1x1200000.ShapeCasts S1200000
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  slices_S2x1200000_S1x1200000_1_0 : S2x1200000.Slices ![1, 0] S1x1200000
  shapeCasts_S5000x64_S5000x64 : S5000x64.ShapeCasts S5000x64
  dot_S5000x64_S64x64_S5000x64_1_0_0_1_n_n_wf : DotDims.WF S5000x64 S64x64 S5000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x80000.size a ≤ S1x1200000.size a
  hwx1_0 : ∀ i : grid1.Coords, EltTy.bits .f32 = 32 ∨ (Rect.block (s := S1x1200000) S1x80000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x80000.size a ≤ S2x1200000.size a
  hwx1_1 : ∀ i : grid1.Coords, EltTy.bits .f32 = 32 ∨ (Rect.block (s := S2x1200000) S2x80000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x80000.size a ≤ S2x1200000.size a
  hwx1_2 : ∀ i : grid1.Coords, EltTy.bits .f32 = 32 ∨ (Rect.block (s := S2x1200000) S2x80000.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S1x80000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S2x80000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S2x80000.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v1) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v33) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v34) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S64 : Shape := ⟨1, ![64]⟩
abbrev S1200000 : Shape := ⟨1, ![1200000]⟩
abbrev S2x1200000 : Shape := ⟨2, ![2, 1200000]⟩
abbrev S1x64 : Shape := ⟨2, ![1, 64]⟩
abbrev S1x1200000 : Shape := ⟨2, ![1, 1200000]⟩
abbrev S_ : Shape := ⟨0, ![]⟩
abbrev S1200000x1 : Shape := ⟨2, ![1200000, 1]⟩
abbrev S1200000x64 : Shape := ⟨2, ![1200000, 64]⟩

abbrev nBuf : Space → Nat
  | .hbm => 79
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S1200000, .f32⟩
  | .hbm, ⟨4, _⟩ => ⟨S2x1200000, .f32⟩
  | .hbm, ⟨5, _⟩ => ⟨S1200000, .i32⟩
  | .hbm, ⟨6, _⟩ => ⟨S1200000, .i32⟩
  | .hbm, ⟨7, _⟩ => ⟨S64x64, .f32⟩
  | .hbm, ⟨8, _⟩ => ⟨S100000x64, .f32⟩
  | .hbm, ⟨9, _⟩ => ⟨S1x64, .f32⟩
  | .hbm, ⟨10, _⟩ => ⟨S100000x64, .f32⟩
  | .hbm, ⟨11, _⟩ => ⟨S100000x64, .f32⟩
  | .hbm, ⟨12, _⟩ => ⟨S1x1200000, .f32⟩
  | .hbm, ⟨13, _⟩ => ⟨S1200000, .f32⟩
  | .hbm, ⟨14, _⟩ => ⟨S_, .f32⟩
  | .hbm, ⟨15, _⟩ => ⟨S1200000, .f32⟩
  | .hbm, ⟨16, _⟩ => ⟨S1200000, .f32⟩
  | .hbm, ⟨17, _⟩ => ⟨S_, .f32⟩
  | .hbm, ⟨18, _⟩ => ⟨S1200000, .f32⟩
  | .hbm, ⟨19, _⟩ => ⟨S1200000, .i1⟩
  | .hbm, ⟨20, _⟩ => ⟨S_, .f32⟩
  | .hbm, ⟨21, _⟩ => ⟨S1200000, .f32⟩
  | .hbm, ⟨22, _⟩ => ⟨S1200000, .f32⟩
  | .hbm, ⟨23, _⟩ => ⟨S_, .f32⟩
  | .hbm, ⟨24, _⟩ => ⟨S_, .f32⟩
  | .hbm, ⟨25, _⟩ => ⟨S1200000, .f32⟩
  | .hbm, ⟨26, _⟩ => ⟨S1200000, .f32⟩
  | .hbm, ⟨27, _⟩ => ⟨S1200000x1, .f32⟩
  | .hbm, ⟨28, _⟩ => ⟨S_, .i32⟩
  | .hbm, ⟨29, _⟩ => ⟨S1200000, .i32⟩
  | .hbm, ⟨30, _⟩ => ⟨S1200000, .i1⟩
  | .hbm, ⟨31, _⟩ => ⟨S_, .i32⟩
  | .hbm, ⟨32, _⟩ => ⟨S1200000, .i32⟩
  | .hbm, ⟨33, _⟩ => ⟨S1200000, .i32⟩
  | .hbm, ⟨34, _⟩ => ⟨S1200000, .i32⟩
  | .hbm, ⟨35, _⟩ => ⟨S1200000x1, .i32⟩
  | .hbm, ⟨36, _⟩ => ⟨S1200000x64, .f32⟩
  | .hbm, ⟨37, _⟩ => ⟨S1200000x64, .f32⟩
  | .hbm, ⟨38, _⟩ => ⟨S1200000x64, .f32⟩
  | .hbm, ⟨39, _⟩ => ⟨S_, .f32⟩
  | .hbm, ⟨40, _⟩ => ⟨S100000x64, .f32⟩
  | .hbm, ⟨41, _⟩ => ⟨S1200000x1, .i32⟩
  | .hbm, ⟨42, _⟩ => ⟨S100000x64, .f32⟩
  | .hbm, ⟨43, _⟩ => ⟨S100000x64, .f32⟩
  | .hbm, ⟨44, _⟩ => ⟨S1x1200000, .f32⟩
  | .hbm, ⟨45, _⟩ => ⟨S1200000, .f32⟩
  | .hbm, ⟨46, _⟩ => ⟨S_, .f32⟩
  | .hbm, ⟨47, _⟩ => ⟨S1200000, .f32⟩
  | .hbm, ⟨48, _⟩ => ⟨S1200000, .f32⟩
  | .hbm, ⟨49, _⟩ => ⟨S_, .f32⟩
  | .hbm, ⟨50, _⟩ => ⟨S1200000, .f32⟩
  | .hbm, ⟨51, _⟩ => ⟨S1200000, .i1⟩
  | .hbm, ⟨52, _⟩ => ⟨S_, .f32⟩
  | .hbm, ⟨53, _⟩ => ⟨S1200000, .f32⟩
  | .hbm, ⟨54, _⟩ => ⟨S1200000, .f32⟩
  | .hbm, ⟨55, _⟩ => ⟨S_, .f32⟩
  | .hbm, ⟨56, _⟩ => ⟨S_, .f32⟩
  | .hbm, ⟨57, _⟩ => ⟨S1200000, .f32⟩
  | .hbm, ⟨58, _⟩ => ⟨S1200000, .f32⟩
  | .hbm, ⟨59, _⟩ => ⟨S1200000x1, .f32⟩
  | .hbm, ⟨60, _⟩ => ⟨S_, .i32⟩
  | .hbm, ⟨61, _⟩ => ⟨S1200000, .i32⟩
  | .hbm, ⟨62, _⟩ => ⟨S1200000, .i1⟩
  | .hbm, ⟨63, _⟩ => ⟨S_, .i32⟩
  | .hbm, ⟨64, _⟩ => ⟨S1200000, .i32⟩
  | .hbm, ⟨65, _⟩ => ⟨S1200000, .i32⟩
  | .hbm, ⟨66, _⟩ => ⟨S1200000, .i32⟩
  | .hbm, ⟨67, _⟩ => ⟨S1200000x1, .i32⟩
  | .hbm, ⟨68, _⟩ => ⟨S1200000x64, .f32⟩
  | .hbm, ⟨69, _⟩ => ⟨S1200000x64, .f32⟩
  | .hbm, ⟨70, _⟩ => ⟨S1200000x64, .f32⟩
  | .hbm, ⟨71, _⟩ => ⟨S_, .f32⟩
  | .hbm, ⟨72, _⟩ => ⟨S100000x64, .f32⟩
  | .hbm, ⟨73, _⟩ => ⟨S1200000x1, .i32⟩
  | .hbm, ⟨74, _⟩ => ⟨S100000x64, .f32⟩
  | .hbm, ⟨75, _⟩ => ⟨S100000x64, .f32⟩
  | .hbm, ⟨76, _⟩ => ⟨S_, .f32⟩
  | .hbm, ⟨77, _⟩ => ⟨S100000x64, .f32⟩
  | .hbm, ⟨78, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_cst_8 : Ref sig .tc := ⟨.hbm, 55, rfl⟩
abbrev main_call1_v0 : Ref sig .tc := ⟨.hbm, 56, rfl⟩
abbrev main_call1_v1 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_c_10 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_11 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_12 : Ref sig .tc := ⟨.hbm, 76, rfl⟩
abbrev main_v51 : Ref sig .tc := ⟨.hbm, 77, rfl⟩
abbrev main_v52 : Ref sig .tc := ⟨.hbm, 78, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x1200000_S1x1200000_0_0 : S2x1200000.Slices ![0, 0] S1x1200000
  shapeCasts_S1x1200000_S1200000 : S1x1200000.ShapeCasts S1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  slices_S2x1200000_S1x1200000_1_0 : S2x1200000.Slices ![1, 0] S1x1200000
  dot_S100000x64_S64x64_S100000x64_1_0_0_1_n_n_wf : DotDims.WF S100000x64 S64x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

class Facts : Prop extends Facts₀ where

variable [Facts]
-- ==== Proof.KernelRun.lean ====
/-
  The idealized kernel program's run, read as far as its result buffer.

  The program is three pipelined regions among stretches of host operations.  Its generated frame follows the contents of
  every unscoped buffer through the segments: after the last region buffer `b` holds `Gen.W6 m ρ c b`.  The frame claim keeps
  of that only the seven argument buffers.  Here the same run is stated with the result buffer kept as well: every weakly
  fair execution terminates, the result buffer holding what the fold of the segments leaves there, the arguments unchanged.
-/
import proofs.«157246_j53386443489751_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last boundary's
    contents of it, and the seven argument buffers end as launched. -/
theorem run_result : θ_run defs (onTc (τ := τ) (main (F := F))) ⟨m, fun _ => 0, ρ⟩ (fun r => ∀ c : Dev nD,
      r.2.mem ((c.tc : Thread nD τ).loc main_v34) = W6 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v34 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.Whole

end
-- ==== Proof.Spec.lean ====
/-
  What the program computes, array by array, on the extended reals.

  A two-layer graph message-passing encoder over N = 100000 nodes with D = 64 features and E = 1200000 edges:
    * the dense layer   fc[r, j] = Σ_k emb[r, k] · W[j, k] + b[j]                                   (`dense`);
    * the edge weights after dropout, one row per layer,
                        v[l, e] = vals[e] / 0.7  if  u[l, e] + 0.7 ≥ 1,  else 0                      (`drop`);
    * one propagation step  x ↦ segment_sum(v[:, None] · x[cols], rows)  — a gather of rows, a product with the
      edge weight, a scatter-add into the rows' segments — kept as ONE function of (v, x, rows, cols), never opened:
      both programs apply literally the same host operations                                         (`spmm`);
    * the mean of the three embeddings  ((fc + x₁) + x₂) · (1/3)                                     (`comb`).
  The float words 0.7, 1.0, 0.0 are kept as words (the same word on both sides is never evaluated); the scale is the
  program's named constant, the rational 1/3.
-/
import proofs.«157246_j53386443489751_2_alg».proof.Proof.Gen.KernelIdeal
import Idealize.ShloMosaic.Lib.ValueIdx
import Idealize.ShloMosaic.PureOps.Ideal.Laws

noncomputable section

open scoped BigOperators

namespace Cert.Gnn

open Idealize.ShloMosaic Idealize.ShloMosaic.ValueIdx Cert.KernelIdeal Cert.KernelIdeal.Facts₀

/-- The keep probability 0.7 as its f32 word, the threshold 1.0, the dropped weight 0.0. -/
abbrev keepP : EReal := Ideal.ofBits .f32 0x3F333333#32
abbrev one' : EReal := Ideal.ofBits .f32 0x3F800000#32
abbrev zero' : EReal := Ideal.ofBits .f32 0x00000000#32
/-- The mean's scale: the program's named constant, the rational 1/3 at the ideal instance. -/
abbrev third : EReal := Named.named (F := Ideal) κ "inv_3" (φ := .f32) 0x3EAAAAAB#32

/-- The dense layer  emb @ Wᵀ + b, the bias given as a one-row matrix. -/
def dense (emb : S100000x64.Idx → EReal) (W : S64x64.Idx → EReal) (b1 : S1x64.Idx → EReal) : S100000x64.Idx → EReal :=
  fun i => (∑ k : Fin 64, emb (ix2 (⟨(i 0).val, (i 0).isLt⟩ : Fin 100000) k) * W (ix2 (⟨(i 1).val, (i 1).isLt⟩ : Fin 64) k))
    + b1 (ix2 (0 : Fin 1) (⟨(i 1).val, (i 1).isLt⟩ : Fin 64))

theorem dense_apply (emb : S100000x64.Idx → EReal) (W : S64x64.Idx → EReal) (b1 : S1x64.Idx → EReal) (r : Fin 100000) (j : Fin 64) :
    dense emb W b1 (ix2 r j) = (∑ k : Fin 64, emb (ix2 r k) * W (ix2 j k)) + b1 (ix2 (0 : Fin 1) j) := rfl

/-- One edge weight after dropout: kept and rescaled where the uniform draw plus the keep probability reaches 1. -/
def dropAt (val u : EReal) : EReal :=
  Scalar.select (Ideal.cmp .oge (u + keepP) one') (Ideal.div val keepP) zero'

/-- The edge weights of both layers, [2, E], from the weights as a one-row matrix and the uniform draws. -/
def drop (vals1 : S1x1200000.Idx → EReal) (u : S2x1200000.Idx → EReal) : S2x1200000.Idx → EReal :=
  fun i => dropAt (vals1 (ix2 (0 : Fin 1) (⟨(i 1).val, (i 1).isLt⟩ : Fin 1200000))) (u i)

theorem drop_apply (vals1 : S1x1200000.Idx → EReal) (u : S2x1200000.Idx → EReal) (l : Fin 2) (e : Fin 1200000) :
    drop vals1 u (ix2 l e) = dropAt (vals1 (ix2 (0 : Fin 1) e)) (u (ix2 l e)) := rfl

/-- The mean of the three embeddings. -/
def comb (a x1 x2 : S100000x64.Idx → EReal) : S100000x64.Idx → EReal := fun i => ((a i + x1 i) + x2 i) * third

/-- Row `l` of the [2, E] edge weights as a vector [E]: the host's slice and reshape. -/
def rowOf (l : Nat) (h : S2x1200000.Slices ![l, 0] S1x1200000) (v : (⟨S2x1200000, .f32⟩ : BufTy).Contents (Elt Ideal)) :
    (⟨S1200000, .f32⟩ : BufTy).Contents (Elt Ideal) :=
  shapeCast S1200000 (extractStridedSlice S1x1200000 ![l, 0] v h) shapeCasts_S1x1200000_S1200000

/-- One propagation step, as the host spells it: the column indices moved into range the way jnp indexing does, the rows of
    `x` gathered at them, each multiplied by its edge weight, and scatter-added into a zero array at the row indices. -/
def spmm (v : (⟨S1200000, .f32⟩ : BufTy).Contents (Elt Ideal)) (x : (⟨S100000x64, .f32⟩ : BufTy).Contents (Elt Ideal))
    (rows cols : (⟨S1200000, .i32⟩ : BufTy).Contents (Elt Ideal)) : (⟨S100000x64, .f32⟩ : BufTy).Contents (Elt Ideal) :=
  Host.scatterAdd (F := Ideal) scatter_S100000x64_S1200000x1_S1200000x64_1_0_0_1
    (broadcastInDim S100000x64 ![] bcast_S_S100000x64 (constant (F := Ideal) S_ .f32 0x00000000#32))
    (broadcastInDim S1200000x1 ![0] bcast_S1200000_S1200000x1_0 rows)
    (mulf (F := Ideal) (broadcastInDim S1200000x64 ![0, 1] bcast_S1200000x1_S1200000x64_0_1 (broadcastInDim S1200000x1 ![0] bcast_S1200000_S1200000x1_0 v))
      (Host.gather gather_S100000x64_S1200000x1_S1200000x64_1_0_n_n_0_1_164 x
        (broadcastInDim S1200000x1 ![0] bcast_S1200000_S1200000x1_0
          (select (cmpi .slt cols (broadcastInDim S1200000 ![] bcast_S_S1200000 (constantI S_ 32 0#32)))
            (addi cols (broadcastInDim S1200000 ![] bcast_S_S1200000 (constantI S_ 32 100000#32))) cols))))

/-- The float word 3.0 denotes the real 3. -/
theorem ofBits_three : Ideal.ofBits .f32 0x40400000#32 = ((3 : ℝ) : EReal) := by
  simp [Ideal.ofBits, Ideal.ieee, -EReal.coe_mul]; norm_num

/-- The named scale is the rational 1/3, by the program's table. -/
theorem third_eq : third = ((1 / 3 : ℝ) : EReal) :=
  IdealRules.named_const.ideal_named_scalar _ _ _ _ rfl

/-- Dividing by the word 3.0 is multiplying by the named 1/3, on every extended real. -/
theorem div_three (x : EReal) : Ideal.div x (Ideal.ofBits .f32 0x40400000#32) = x * third := by
  rw [ofBits_three, third_eq, Ideal.div_coe (by norm_num : (3 : ℝ) ≠ 0)]

end Cert.Gnn

end
-- ==== Proof.Encoder.lean ====
/-
  The whole encoder as ONE function of the seven argument arrays, on the extended reals:

      v      = drop(vals as one row, u)                        the edge weights after dropout, a row per layer
      x₁     = spmm(v[0], emb, rows, cols)                     the first propagation step
      x₂     = spmm(v[1], x₁,  rows, cols)                     the second
      result = ((dense(emb, W, b as one row) + x₁) + x₂) · (1/3)

  Both programs end at this function of their arguments.
-/
import proofs.«157246_j53386443489751_2_alg».proof.Proof.Spec

noncomputable section

namespace Cert.Gnn

open Idealize.ShloMosaic Idealize.ShloMosaic.ValueIdx Cert.KernelIdeal Cert.KernelIdeal.Facts₀

/-- The edge weights of both layers from the weights vector and the draws. -/
def edgeWeights (vals : (⟨S1200000, .f32⟩ : BufTy).Contents (Elt Ideal)) (u : (⟨S2x1200000, .f32⟩ : BufTy).Contents (Elt Ideal)) :
    (⟨S2x1200000, .f32⟩ : BufTy).Contents (Elt Ideal) :=
  drop (shapeCast S1x1200000 vals shapeCasts_S1200000_S1x1200000) u

/-- The encoder's result. -/
def encoder (emb : (⟨S100000x64, .f32⟩ : BufTy).Contents (Elt Ideal)) (W : (⟨S64x64, .f32⟩ : BufTy).Contents (Elt Ideal))
    (b : (⟨S64, .f32⟩ : BufTy).Contents (Elt Ideal)) (vals : (⟨S1200000, .f32⟩ : BufTy).Contents (Elt Ideal))
    (u : (⟨S2x1200000, .f32⟩ : BufTy).Contents (Elt Ideal)) (rows cols : (⟨S1200000, .i32⟩ : BufTy).Contents (Elt Ideal)) :
    (⟨S100000x64, .f32⟩ : BufTy).Contents (Elt Ideal) :=
  comb (dense emb W (shapeCast S1x64 b shapeCasts_S64_S1x64))
    (spmm (rowOf 0 slices_S2x1200000_S1x1200000_0_0 (edgeWeights vals u)) emb rows cols)
    (spmm (rowOf 1 slices_S2x1200000_S1x1200000_1_0 (edgeWeights vals u))
      (spmm (rowOf 0 slices_S2x1200000_S1x1200000_0_0 (edgeWeights vals u)) emb rows cols) rows cols)

end Cert.Gnn

end
-- ==== Proof.LibDotInner.lean ====
/-
  A product of two matrices along the last axis of the first and the first axis of the second, read at an entry.

  `x @ W` — a [M, K] matrix against a [K, N] matrix — has at (p, f) the entry Σ_k x[p, k] · W[k, f]. Over the extended reals
  this holds of the matrix unit started from the zero splat, whatever order it sums in. The dimension numbers enter only through
  four coordinate facts (which operand coordinate is the result's row, the result's column, the contraction's index); a
  caller proves them of its own record and gets the entry as a sum over `Fin K`.
-/
import Idealize.ShloMosaic.PureOps.Ideal.Laws
import Idealize.ShloMosaic.Lib.ValueIdx

noncomputable section

open scoped BigOperators

namespace Idealize.ShloMosaic.DotInner

open Idealize.ShloMosaic Idealize.ShloMosaic.ValueIdx

variable {M N K : ℕ} {φ₁ φ₂ : FTy}

/-- The two operand indices at result entry (p, f) and contraction coordinate k are (p, k) and (k, f). -/
theorem operand_idx (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin M) (f : Fin N) (k : Fin K) :
    D.lhsIdx (ix2 p f) ((contrEquiv1 D K hr hs).symm k) = ix2 p k
      ∧ D.rhsIdx (ix2 p f) ((contrEquiv1 D K hr hs).symm k) = ix2 k f := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- THE MATRIX UNIT from the zero splat: entry (p, f) is Σ_k lhs[p, k] · rhs[k, f]. -/
theorem matmul_zero_apply (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotInner

end
-- ==== Proof.LibDotInnerHost.lean ====
/-
  The host's matrix product along the last axis of the first operand and the first axis of the second, read at an entry,
  and the six facts about a record of dimension numbers that both readings (the matrix unit's and the host's) ask for,
  bundled so that a caller proves them once per record.

  For a [M, K] matrix against a [K, N] matrix both products have at (p, f) the entry Σ_k x[p, k] · W[k, f] over the
  extended reals: the host's product carries no accumulator, the matrix unit's starts from the zero splat.
-/
import Idealize.ShloMosaic.PureOps.Ideal.Laws
import Idealize.ShloMosaic.Lib.ValueIdx
import proofs.«157246_j53386443489751_2_alg».proof.Proof.LibDotInner

noncomputable section

open scoped BigOperators

namespace Idealize.ShloMosaic.DotInner

open Idealize.ShloMosaic Idealize.ShloMosaic.ValueIdx

variable {M N K : ℕ} {φ₁ φ₂ : FTy}

/-- What a plain row-by-column product's dimension numbers say: one contracted axis of extent K; the left operand's
    coordinates are (result row, contraction index), the right operand's (contraction index, result column). -/
structure Plain (D : DotDims ⟨2, ![M, K]⟩ ⟨2, ![K, N]⟩ ⟨2, ![M, N]⟩) : Prop where
  rank : D.contr.rank = 1
  size : D.contr.size ⟨0, by omega⟩ = K
  l0 : ∀ j q, (D.lhsIdx j q 0).val = (j 0).val
  l1 : ∀ j q, (D.lhsIdx j q 1).val = (q ⟨0, by omega⟩).val
  r0 : ∀ j q, (D.rhsIdx j q 0).val = (q ⟨0, by omega⟩).val
  r1 : ∀ j q, (D.rhsIdx j q 1).val = (j 1).val

/-- The matrix unit from the zero splat, entry (p, f): Σ_k lhs[p, k] · rhs[k, f]. -/
theorem Plain.matmul_zero {D : DotDims ⟨2, ![M, K]⟩ ⟨2, ![K, N]⟩ ⟨2, ![M, N]⟩} (h : Plain D)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) :=
  matmul_zero_apply D h.rank h.size h.l0 h.l1 h.r0 h.r1 prec lhs rhs p f

/-- The host's product, entry (p, f): the same sum, with no accumulator. -/
theorem Plain.dotGeneral {D : DotDims ⟨2, ![M, K]⟩ ⟨2, ![K, N]⟩ ⟨2, ![M, N]⟩} (h : Plain D)
    (prec : Option ContractPrecision) (lhs : FVec Ideal ⟨2, ![M, K]⟩ φ₁) (rhs : FVec Ideal ⟨2, ![K, N]⟩ φ₂) (p : Fin M) (f : Fin N) :
    Host.dotGeneral (F := Ideal) D prec lhs rhs (ix2 p f) = ∑ k : Fin K, lhs (ix2 p k) * rhs (ix2 k f) := by
  show FloatOps.dotGeneral D prec .single lhs rhs (ix2 p f) = _
  rw [Ideal.dotGeneral_apply, ← Equiv.sum_comp (contrEquiv1 D K h.rank h.size).symm]
  refine Finset.sum_congr rfl fun k _ => ?_
  obtain ⟨el, er⟩ := operand_idx D h.rank h.size h.l0 h.l1 h.r0 h.r1 p f k
  rw [el, er]

/-- The six facts of a record D whose lists say rows-by-columns (left operand of shape sl contracted on its axis 1, right
    operand of shape sr on its axis 0, no batch axes): the contraction's rank and extent compute; the contracted
    coordinates are the library's single-axis lemmas; the kept coordinates are read off the index maps' own case split,
    whose two membership tests are decided on the record's lists. -/
macro "plain_record " D:term ", " sl:term ", " sr:term : term => `(
  { rank := rfl
    size := rfl
    l0 := fun j q => by
      unfold DotDims.lhsIdx
      rw [dif_neg (show ¬(0 : Fin ($sl).rank) ∈ ($D).lhsBatch by decide),
        dif_pos (show (0 : Fin ($sl).rank) ∈ ($D).lhsNonContracting by decide)]
      rfl
    l1 := fun j q => DotDims.lhsIdx_val_of_single $D rfl j q
    r0 := fun j q => DotDims.rhsIdx_val_of_single $D rfl j q
    r1 := fun j q => by
      unfold DotDims.rhsIdx
      rw [dif_neg (show ¬(1 : Fin ($sr).rank) ∈ ($D).rhsBatch by decide),
        dif_pos (show (1 : Fin ($sr).rank) ∈ ($D).rhsNonContracting by decide)]
      rfl })

end Idealize.ShloMosaic.DotInner

end
-- ==== Proof.LibDenseLayer.lean ====
/-
  A host-side dense layer read at an entry, on the extended reals.

  jnp's  x @ W + b  lowers to a dot_general, the bias vector broadcast to a one-row matrix and then down the rows, and an
  add; a relu lowers to a maximum against the zero scalar broadcast to the whole shape. Read at entry (e, k):
  the broadcast bias is b[k] whatever the row; the zero splat is the extended real 0; the layer is Σ_j x[e,j]·W[j,k] + b[k].
-/
import Idealize.ShloMosaic.PureOps.Ideal.Laws
import Idealize.ShloMosaic.Lib.ValueIdx
import Idealize.ShloMosaic.Lib.Pipeline.Value
import proofs.«157246_j53386443489751_2_alg».proof.Proof.LibDotInnerHost

noncomputable section

open scoped BigOperators

namespace Idealize.ShloMosaic.DenseLayer

open Idealize.ShloMosaic Idealize.ShloMosaic.ValueIdx Idealize.ShloMosaic.DotInner

variable {n d h : ℕ}

/-- A vector broadcast to one row and then down n rows reads, at (e, k), the vector at k. -/
theorem bias_apply (b : (⟨1, ![h]⟩ : Shape).Idx → EReal)
    (h1 : (⟨1, ![h]⟩ : Shape).BroadcastsInDim ⟨2, ![1, h]⟩ ![1])
    (h2 : (⟨2, ![1, h]⟩ : Shape).BroadcastsInDim ⟨2, ![n, h]⟩ ![0, 1]) (e : Fin n) (k : Fin h) :
    broadcastInDim ⟨2, ![n, h]⟩ ![0, 1] h2 (broadcastInDim ⟨2, ![1, h]⟩ ![1] h1 b) (ix2 e k) = b (ix1 k) := by
  rw [broadcastInDim_apply ![0, 1] h2 _ (ix2 e k) (ix2 (0 : Fin 1) k) (fun a => by
        match a with
        | ⟨0, _⟩ => rfl
        | ⟨1, _⟩ =>
          show k.val = if h = 1 then 0 else k.val
          split
          · have := k.isLt; omega
          · rfl)]
  exact broadcastInDim_apply ![1] h1 b (ix2 (0 : Fin 1) k) (ix1 k) (fun a => by
        match a with
        | ⟨0, _⟩ =>
          show k.val = if h = 1 then 0 else k.val
          split
          · have := k.isLt; omega
          · rfl)

/-- The zero scalar broadcast to a whole shape reads the extended real 0 everywhere. -/
theorem zero_splat_apply {t : Shape} (h0 : (⟨0, ![]⟩ : Shape).BroadcastsInDim t ![]) (i : t.Idx) :
    broadcastInDim t ![] h0 (constant (F := Ideal) ⟨0, ![]⟩ .f32 0x00000000#32) i = 0 := by
  rw [broadcastInDim_apply ![] h0 _ i ix0 (fun a => a.elim0), constant_apply]
  exact Ideal.ofBits_zero_f32

/-- THE LAYER: a rows-by-columns host product plus the broadcast bias, at entry (e, k). -/
theorem dense_apply {D : DotDims ⟨2, ![n, d]⟩ ⟨2, ![d, h]⟩ ⟨2, ![n, h]⟩} (hD : Plain D)
    (x : (⟨2, ![n, d]⟩ : Shape).Idx → EReal) (W : (⟨2, ![d, h]⟩ : Shape).Idx → EReal) (b : (⟨1, ![h]⟩ : Shape).Idx → EReal)
    (h1 : (⟨1, ![h]⟩ : Shape).BroadcastsInDim ⟨2, ![1, h]⟩ ![1])
    (h2 : (⟨2, ![1, h]⟩ : Shape).BroadcastsInDim ⟨2, ![n, h]⟩ ![0, 1]) (e : Fin n) (k : Fin h) :
    addf (F := Ideal) (φ := .f32) (Host.dotGeneral (F := Ideal) (φ₁ := .f32) (φ₂ := .f32) D none x W)
        (broadcastInDim ⟨2, ![n, h]⟩ ![0, 1] h2 (broadcastInDim ⟨2, ![1, h]⟩ ![1] h1 b)) (ix2 e k)
      = (∑ j : Fin d, x (ix2 e j) * W (ix2 j k)) + b (ix1 k) := by
  rw [addf_apply, hD.dotGeneral, bias_apply]

end Idealize.ShloMosaic.DenseLayer

end
-- ==== Proof.Bodies.lean ====
/-
  The three kernel bodies' stored values, read at an entry, on the extended reals.

  Each body loads its blocks whole, computes one value and stores it whole; the stored value is a pure function of the
  loaded blocks (the generated payloads `k0_pay1`, `k1_pay1`, `k2_pay1`).  At the ideal instance a change of float format
  is the identity, so:
    * the dense body's entry (p, q) is  Σ_k x[p, k] · w[q, k] + b[0, q]  — the matrix unit from the zero accumulator on
      the transposed weight block, plus the bias row broadcast down the rows;
    * the dropout body's entry (l, e) is the dropout rule applied to the weight vals[0, e] and the draw u[l, e];
    * the mean body's entry is  ((a + x₁) + x₂) · (1/3).
-/
import proofs.«157246_j53386443489751_2_alg».proof.Proof.Gen.KernelIdeal.Skeleton
import proofs.«157246_j53386443489751_2_alg».proof.Proof.Spec
import proofs.«157246_j53386443489751_2_alg».proof.Proof.LibDenseLayer
import Idealize.ShloMosaic.Lib.ValueLayout
import Idealize.ShloMosaic.Lib.Pipeline.Value

noncomputable section

open scoped BigOperators

namespace Cert.Gnn.Bodies

open Idealize.ShloMosaic Idealize.ShloMosaic.ValueIdx Idealize.ShloMosaic.DotInner
open Cert.KernelIdeal Cert.KernelIdeal.Gen Cert.KernelIdeal.Facts₀ Cert.Gnn

/-- The dense body's dimension numbers say rows by columns: the left block contracted on its second axis, the
    (transposed) weight block on its first. -/
theorem plain_fc : Plain dot_S5000x64_S64x64_S5000x64_1_0_0_1_n_n :=
  plain_record dot_S5000x64_S64x64_S5000x64_1_0_0_1_n_n, S5000x64, S64x64

/-- The dense body at entry (p, q). -/
theorem fc_entry (x0 : Vec Ideal S5000x64 .f32) (x1 : Vec Ideal S64x64 .f32) (x2 : Vec Ideal S1x64 .f32)
    (p : Fin 5000) (q : Fin 64) :
    k0_pay1 x0 x1 x2 (ix2 p q) = (∑ k : Fin 64, x0 (ix2 p k) * x1 (ix2 q k)) + x2 (ix2 (0 : Fin 1) q) := by
  unfold k0_pay1
  dsimp only
  refine (addf_apply _ _ _).trans ?_
  refine congrArg₂ (· + ·) ?_ ?_
  · refine (plain_fc.matmul_zero none _ _ p q).trans ?_
    refine Finset.sum_congr rfl fun k _ => ?_
    rw [truncf_apply, transpose_ix2_apply, truncf_apply]
  · rw [broadcastTo_1b_ab_apply, shapeCast_self]

/-- The dropout body at entry (l, e). -/
theorem drop_entry (x0 : Vec Ideal S1x80000 .f32) (x1 : Vec Ideal S2x80000 .f32) (l : Fin 2) (e : Fin 80000) :
    k1_pay1 x0 x1 (ix2 l e) = dropAt (x0 (ix2 (0 : Fin 1) e)) (x1 (ix2 l e)) := by
  have hb : broadcastTo S2x80000 x0 Facts₀.broadcasts_S1x80000_S2x80000 (ix2 l e) = x0 (ix2 (0 : Fin 1) e) :=
    broadcastTo_1b_ab_apply x0 _ l e
  unfold k1_pay1
  try dsimp only
  simp only [shapeCast_self]
  show Scalar.select (Ideal.cmp .oge (x1 (ix2 l e) + keepP) one')
      (Ideal.div (broadcastTo S2x80000 x0 Facts₀.broadcasts_S1x80000_S2x80000 (ix2 l e)) keepP) zero' = _
  rw [hb]
  rfl

/-- The mean body at any entry. -/
theorem comb_entry (x0 x1 x2 : Vec Ideal S5000x64 .f32) (i : S5000x64.Idx) :
    k2_pay1 x0 x1 x2 i = ((x0 i + x1 i) + x2 i) * third := by
  unfold k2_pay1
  try dsimp only
  simp only [shapeCast_self]
  rfl

end Cert.Gnn.Bodies

end
-- ==== Proof.Region0.lean ====
/-
  The first region (the dense layer), blocks to array.

  The region's grid has 20 points.  At point t the embedding window's block and the result window's block are rows
  5000·t … 5000·t + 4999, all 64 columns; the weight window's block is the whole [64, 64] weight and the bias window's the
  whole one-row bias, at every point.  So what point t writes back is block t of ONE whole-array function of the three
  input arrays as the region finds them, `dense`: entry (r, j) is  Σ_k emb[r, k] · W[j, k] + b[0, j].  The 20 blocks tile
  the result array, so after the region the result array is that function.
-/
import proofs.«157246_j53386443489751_2_alg».proof.Proof.Gen.KernelIdeal.Frame
import proofs.«157246_j53386443489751_2_alg».proof.Proof.Bodies
import Idealize.ShloMosaic.Lib.Pipeline.Value

set_option maxRecDepth 16384

noncomputable section

open scoped BigOperators

namespace Cert.Gnn.Region0

open Idealize.ShloMosaic Idealize.ShloMosaic.TcCoe Idealize.ShloMosaic.ValueIdx Idealize.SL.Sem
open Idealize.ShloMosaic.Pipeline (Dat)
open Cert.KernelIdeal Cert.KernelIdeal.Gen Cert.Gnn Cert.Gnn.Bodies

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the embedding's and the result's block index at point t is (t, 0), the weight's
    and the bias's (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The dense body on a block that is rows 5000·tv … of an array `A`, the whole weight and the whole bias row, at an entry:
    the dense layer of the whole arrays at the entry's place in the array. -/
theorem dense_block (A : S100000x64.Idx → EReal) (Wm : S64x64.Idx → EReal) (b1 : S1x64.Idx → EReal)
    (x0 : Vec Ideal S5000x64 .f32) (x1 : Vec Ideal S64x64 .f32) (x2 : Vec Ideal S1x64 .f32) (tv : Nat)
    (h0 : ∀ (p : Fin 5000) (k : Fin 64) (r : Fin 100000), r.val = tv * 5000 + p.val → x0 (ix2 p k) = A (ix2 r k))
    (h1 : x1 = Wm) (h2 : x2 = b1)
    (y : S5000x64.Idx) (i : S100000x64.Idx) (hi0 : (i 0).val = tv * 5000 + (y 0).val) (hi1 : (i 1).val = (y 1).val) :
    k0_pay1 x0 x1 x2 y = dense A Wm b1 i := by
  obtain ⟨p, q, rfl⟩ : ∃ (p : Fin 5000) (q : Fin 64), y = ix2 p q := ⟨y 0, y 1, eq_ix2 y⟩
  obtain ⟨r, s, rfl⟩ : ∃ (r : Fin 100000) (s : Fin 64), i = ix2 r s := ⟨i 0, i 1, eq_ix2 i⟩
  have hs : s = q := Fin.ext hi1
  subst hs
  rw [fc_entry, dense_apply, h1, h2]
  refine congrArg₂ (· + ·) (Finset.sum_congr rfl fun k _ => ?_) rfl
  rw [h0 p k r hi0]

/-- WHAT POINT t WRITES BACK is block t of `dense` of the three input arrays as the region finds them. -/
theorem flushed_eq (c : Dev nD) (t : Fin cfg0.N) :
    (dat0 V c).flushed 3 t = ((cfg0.win 3).blk t).view.read (Elt Ideal) (dense (V c main_arg0) (V c main_arg1) (V c main_v0)) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x64) hz, View.ld_unit_zero (S := S1x64) hz]
  obtain ⟨e00, e01, e10, e11, e20, e21, e30, e31⟩ := idx_facts t
  funext j
  refine dense_block (V c main_arg0) (V c main_arg1) (V c main_v0) (iblk0 V c 0 t) (iblk0 V c 1 t) (iblk0 V c 2 t) t.val
    ?_ ?_ ?_ j (((cfg0.win 3).blk t).view.emb j) ?_ ?_
  · intro p k r hr
    show V c main_arg0 (((cfg0.win 0).blk t).view.emb (ix2 p k)) = V c main_arg0 (ix2 r k)
    refine congrArg _ (funext fun a => Fin.ext ?_)
    match a with
    | ⟨0, _⟩ => show win0_0.index t (0 : Fin 2) * 5000 + 1 * p.val = r.val; rw [e00, hr]; omega
    | ⟨1, _⟩ => show win0_0.index t (1 : Fin 2) * 64 + 1 * k.val = k.val; rw [e01]; omega
  · funext y
    show V c main_arg1 (((cfg0.win 1).blk t).view.emb y) = V c main_arg1 y
    refine congrArg _ (funext fun a => Fin.ext ?_)
    match a with
    | ⟨0, _⟩ => show win0_1.index t (0 : Fin 2) * 64 + 1 * (y 0).val = (y 0).val; rw [e10]; omega
    | ⟨1, _⟩ => show win0_1.index t (1 : Fin 2) * 64 + 1 * (y 1).val = (y 1).val; rw [e11]; omega
  · funext y
    show V c main_v0 (((cfg0.win 2).blk t).view.emb y) = V c main_v0 y
    refine congrArg _ (funext fun a => Fin.ext ?_)
    match a with
    | ⟨0, _⟩ => show win0_2.index t (0 : Fin 2) * 1 + 1 * (y 0).val = (y 0).val; rw [e20]; omega
    | ⟨1, _⟩ => show win0_2.index t (1 : Fin 2) * 64 + 1 * (y 1).val = (y 1).val; rw [e21]; omega
  · show win0_3.index t (0 : Fin 2) * 5000 + 1 * (j 0).val = t.val * 5000 + (j 0).val; rw [e30]; omega
  · show win0_3.index t (1 : Fin 2) * 64 + 1 * (j 1).val = (j 1).val; rw [e31]; omega

/-- An index of the result array is in point t's block iff each coordinate is in the block's range on its axis. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v1).slice (win0_3.rect t)).set ↔ _
  rw [View.set_slice_whole, Rect.mem_set_unit]
  exact Iff.rfl

/-- Every index of the result array is in the block of the point its row falls to. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, e30, e31⟩ := idx_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; rw [e30, ht]; omega
  | ⟨1, _⟩ => show win0_3.index t (1 : Fin 2) * 64 ≤ (i 1).val ∧ (i 1).val < win0_3.index t (1 : Fin 2) * 64 + 64; rw [e31]; omega

/-- THE RESULT ARRAY after the region: the dense layer of the three input arrays as the region finds them. -/
theorem final (c : Dev nD) : (dat0 V c).arrAt 3 cfg0.N = dense (V c main_arg0) (V c main_arg1) (V c main_v0) :=
  (dat0 V c).arrAt_eq_of_cover 3 _ (fun t _ => flushed_eq V c t) cover

end Cert.Gnn.Region0

end
-- ==== Proof.Region1.lean ====
/-
  The second region (the edge weights after dropout, both layers), blocks to array.

  The region's grid has 15 points.  At point t the weights window's block is columns 80000·t … 80000·t + 79999 of the
  one-row weights, and the draws window's and the result window's blocks are the same columns of their two rows.  The body
  is the dropout rule entry by entry (the weights' one row broadcast to both rows), so what point t writes back is block t of
  ONE whole-array function of the two input arrays as the region finds them, `drop`; the 15 blocks tile the [2, 1200000]
  result array, so after the region the result array is that function.
-/
import proofs.«157246_j53386443489751_2_alg».proof.Proof.Gen.KernelIdeal.Frame
import proofs.«157246_j53386443489751_2_alg».proof.Proof.Bodies
import Idealize.ShloMosaic.Lib.Pipeline.Value

set_option maxRecDepth 16384

noncomputable section

namespace Cert.Gnn.Region1

open Idealize.ShloMosaic Idealize.ShloMosaic.TcCoe Idealize.ShloMosaic.ValueIdx Idealize.SL.Sem
open Idealize.ShloMosaic.Pipeline (Dat)
open Cert.KernelIdeal Cert.KernelIdeal.Gen Cert.Gnn Cert.Gnn.Bodies

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: every window's block index at point t is (0, t). -/
theorem idx_facts : ∀ t : Fin cfg1.N,
    win1_0.index t (0 : Fin 2) = 0 ∧ win1_0.index t (1 : Fin 2) = t.val
    ∧ win1_1.index t (0 : Fin 2) = 0 ∧ win1_1.index t (1 : Fin 2) = t.val
    ∧ win1_2.index t (0 : Fin 2) = 0 ∧ win1_2.index t (1 : Fin 2) = t.val :=
  (by decide +kernel : ∀ t : Fin grid1.N, _)

/-- The dropout body on blocks that are columns 80000·tv … of the weights row and of the draws, at an entry: the dropout
    rule of the whole arrays at the entry's place in the array. -/
theorem drop_block (vals1 : S1x1200000.Idx → EReal) (u : S2x1200000.Idx → EReal)
    (x0 : Vec Ideal S1x80000 .f32) (x1 : Vec Ideal S2x80000 .f32) (tv : Nat)
    (h0 : ∀ (e : Fin 80000) (g : Fin 1200000), g.val = tv * 80000 + e.val → x0 (ix2 (0 : Fin 1) e) = vals1 (ix2 (0 : Fin 1) g))
    (h1 : ∀ (l : Fin 2) (e : Fin 80000) (g : Fin 1200000), g.val = tv * 80000 + e.val → x1 (ix2 l e) = u (ix2 l g))
    (y : S2x80000.Idx) (i : S2x1200000.Idx) (hi0 : (i 0).val = (y 0).val) (hi1 : (i 1).val = tv * 80000 + (y 1).val) :
    k1_pay1 x0 x1 y = drop vals1 u i := by
  obtain ⟨l, e, rfl⟩ : ∃ (l : Fin 2) (e : Fin 80000), y = ix2 l e := ⟨y 0, y 1, eq_ix2 y⟩
  obtain ⟨l', g, rfl⟩ : ∃ (l' : Fin 2) (g : Fin 1200000), i = ix2 l' g := ⟨i 0, i 1, eq_ix2 i⟩
  have hl : l' = l := Fin.ext hi0
  subst hl
  rw [drop_entry, drop_apply, h0 e g hi1, h1 l' e g hi1]

/-- WHAT POINT t WRITES BACK is block t of `drop` of the two input arrays as the region finds them. -/
theorem flushed_eq (c : Dev nD) (t : Fin cfg1.N) :
    (dat1 V c).flushed 2 t = ((cfg1.win 2).blk t).view.read (Elt Ideal) (drop (V c main_v2) (V c main_arg4)) := by
  show (cfg1.win 2).cut (grid1.coords t) ((dat1 V c).after 2 t) = _
  rw [after1_2]
  unfold out1_2
  rw [View.canon_unit_zero hz]
  simp only [View.ld_unit_zero (S := S1x80000) hz, View.ld_unit_zero (S := S2x80000) hz]
  obtain ⟨e00, e01, e10, e11, e20, e21⟩ := idx_facts t
  funext j
  refine drop_block (V c main_v2) (V c main_arg4) (iblk1 V c 0 t) (iblk1 V c 1 t) t.val
    ?_ ?_ j (((cfg1.win 2).blk t).view.emb j) ?_ ?_
  · intro e g hg
    show V c main_v2 (((cfg1.win 0).blk t).view.emb (ix2 (0 : Fin 1) e)) = V c main_v2 (ix2 (0 : Fin 1) g)
    refine congrArg _ (funext fun a => Fin.ext ?_)
    match a with
    | ⟨0, _⟩ => show win1_0.index t (0 : Fin 2) * 1 + 1 * 0 = 0; rw [e00]
    | ⟨1, _⟩ => show win1_0.index t (1 : Fin 2) * 80000 + 1 * e.val = g.val; rw [e01, hg]; omega
  · intro l e g hg
    show V c main_arg4 (((cfg1.win 1).blk t).view.emb (ix2 l e)) = V c main_arg4 (ix2 l g)
    refine congrArg _ (funext fun a => Fin.ext ?_)
    match a with
    | ⟨0, _⟩ => show win1_1.index t (0 : Fin 2) * 2 + 1 * l.val = l.val; rw [e10]; omega
    | ⟨1, _⟩ => show win1_1.index t (1 : Fin 2) * 80000 + 1 * e.val = g.val; rw [e11, hg]; omega
  · show win1_2.index t (0 : Fin 2) * 2 + 1 * (j 0).val = (j 0).val; rw [e20]; omega
  · show win1_2.index t (1 : Fin 2) * 80000 + 1 * (j 1).val = t.val * 80000 + (j 1).val; rw [e21]; omega

/-- An index of the result array is in point t's block iff each coordinate is in the block's range on its axis. -/
theorem mem_blk (t : Fin cfg1.N) (i : S2x1200000.Idx) :
    i ∈ ((cfg1.win 2).blk t).view.set ↔ ∀ a : Fin 2, win1_2.index t a * S2x80000.size a ≤ (i a).val ∧ (i a).val < win1_2.index t a * S2x80000.size a + S2x80000.size a := by
  show i ∈ ((View.whole main_v3).slice (win1_2.rect t)).set ↔ _
  rw [View.set_slice_whole, Rect.mem_set_unit]
  exact Iff.rfl

/-- Every index of the result array is in the block of the point its column falls to. -/
theorem cover (i : S2x1200000.Idx) : ∃ t : Fin cfg1.N, (cfg1.win 2).flush t = true ∧ i ∈ ((cfg1.win 2).blk t).view.set := by
  have hi0 : (i 0).val < 2 := (i 0).isLt
  have hi1 : (i 1).val < 1200000 := (i 1).isLt
  have hN : cfg1.N = 15 := N_1
  obtain ⟨t, ht⟩ : ∃ t : Fin cfg1.N, t.val = (i 1).val / 80000 := ⟨⟨(i 1).val / 80000, by rw [hN]; omega⟩, rfl⟩
  obtain ⟨-, -, -, -, e20, e21⟩ := idx_facts t
  refine ⟨t, flush1_2 t, ?_⟩
  rw [mem_blk]
  intro a
  match a with
  | ⟨0, _⟩ => show win1_2.index t (0 : Fin 2) * 2 ≤ (i 0).val ∧ (i 0).val < win1_2.index t (0 : Fin 2) * 2 + 2; rw [e20]; omega
  | ⟨1, _⟩ => show win1_2.index t (1 : Fin 2) * 80000 ≤ (i 1).val ∧ (i 1).val < win1_2.index t (1 : Fin 2) * 80000 + 80000; rw [e21, ht]; omega

/-- THE RESULT ARRAY after the region: the edge weights after dropout, of the two input arrays as the region finds them. -/
theorem final (c : Dev nD) : (dat1 V c).arrAt 2 cfg1.N = drop (V c main_v2) (V c main_arg4) :=
  (dat1 V c).arrAt_eq_of_cover 2 _ (fun t _ => flushed_eq V c t) cover

end Cert.Gnn.Region1

end
-- ==== Proof.Region2.lean ====
/-
  The third region (the mean of the three embeddings), blocks to array.

  The region's grid has 20 points; at point t every window's block is rows 5000·t … 5000·t + 4999 of its [100000, 64]
  array, all 64 columns.  The body is pointwise, so what point t writes back is block t of ONE whole-array function of the
  three input arrays as the region finds them, `comb`; the 20 blocks tile the result array (row r lies in the block of point
  r / 5000), so after the region the result array is that function.
-/
import proofs.«157246_j53386443489751_2_alg».proof.Proof.Gen.KernelIdeal.Frame
import proofs.«157246_j53386443489751_2_alg».proof.Proof.Bodies
import Idealize.ShloMosaic.Lib.Pipeline.Value

set_option maxRecDepth 16384

noncomputable section

namespace Cert.Gnn.Region2

open Idealize.ShloMosaic Idealize.ShloMosaic.TcCoe Idealize.ShloMosaic.ValueIdx Idealize.SL.Sem
open Idealize.ShloMosaic.Pipeline (Dat)
open Cert.KernelIdeal Cert.KernelIdeal.Gen Cert.Gnn Cert.Gnn.Bodies

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: every window's block index at point t is (t, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The mean body on blocks that are rows 5000·t … of three arrays, at an entry: the mean of the arrays' entries there. -/
theorem comb_block (A B C : S100000x64.Idx → EReal) (x0 x1 x2 : Vec Ideal S5000x64 .f32) (y : S5000x64.Idx) (i : S100000x64.Idx)
    (h0 : x0 y = A i) (h1 : x1 y = B i) (h2 : x2 y = C i) :
    k2_pay1 x0 x1 x2 y = comb A B C i := by
  rw [comb_entry, h0, h1, h2]
  rfl

/-- WHAT POINT t WRITES BACK is block t of `comb` of the three input arrays as the region finds them. -/
theorem flushed_eq (c : Dev nD) (t : Fin cfg2.N) :
    (dat2 V c).flushed 3 t = ((cfg2.win 3).blk t).view.read (Elt Ideal) (comb (V c main_v1) (V c main_v18) (V c main_v33)) := by
  show (cfg2.win 3).cut (grid2.coords t) ((dat2 V c).after 3 t) = _
  rw [after2_3]
  unfold out2_3
  rw [View.canon_unit_zero hz]
  simp only [View.ld_unit_zero (S := S5000x64) hz]
  obtain ⟨e00, e01, e10, e11, e20, e21, e30, e31⟩ := idx_facts t
  funext j
  refine comb_block (V c main_v1) (V c main_v18) (V c main_v33) (iblk2 V c 0 t) (iblk2 V c 1 t) (iblk2 V c 2 t) j
    (((cfg2.win 3).blk t).view.emb j) ?_ ?_ ?_
  · show V c main_v1 (((cfg2.win 0).blk t).view.emb j) = V c main_v1 (((cfg2.win 3).blk t).view.emb j)
    refine congrArg _ (funext fun a => Fin.ext ?_)
    match a with
    | ⟨0, _⟩ => show win2_0.index t (0 : Fin 2) * 5000 + 1 * (j 0).val = win2_3.index t (0 : Fin 2) * 5000 + 1 * (j 0).val; rw [e00, e30]
    | ⟨1, _⟩ => show win2_0.index t (1 : Fin 2) * 64 + 1 * (j 1).val = win2_3.index t (1 : Fin 2) * 64 + 1 * (j 1).val; rw [e01, e31]
  · show V c main_v18 (((cfg2.win 1).blk t).view.emb j) = V c main_v18 (((cfg2.win 3).blk t).view.emb j)
    refine congrArg _ (funext fun a => Fin.ext ?_)
    match a with
    | ⟨0, _⟩ => show win2_1.index t (0 : Fin 2) * 5000 + 1 * (j 0).val = win2_3.index t (0 : Fin 2) * 5000 + 1 * (j 0).val; rw [e10, e30]
    | ⟨1, _⟩ => show win2_1.index t (1 : Fin 2) * 64 + 1 * (j 1).val = win2_3.index t (1 : Fin 2) * 64 + 1 * (j 1).val; rw [e11, e31]
  · show V c main_v33 (((cfg2.win 2).blk t).view.emb j) = V c main_v33 (((cfg2.win 3).blk t).view.emb j)
    refine congrArg _ (funext fun a => Fin.ext ?_)
    match a with
    | ⟨0, _⟩ => show win2_2.index t (0 : Fin 2) * 5000 + 1 * (j 0).val = win2_3.index t (0 : Fin 2) * 5000 + 1 * (j 0).val; rw [e20, e30]
    | ⟨1, _⟩ => show win2_2.index t (1 : Fin 2) * 64 + 1 * (j 1).val = win2_3.index t (1 : Fin 2) * 64 + 1 * (j 1).val; rw [e21, e31]

/-- An index of the result array is in point t's block iff each coordinate is in the block's range on its axis. -/
theorem mem_blk (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v34).slice (win2_3.rect t)).set ↔ _
  rw [View.set_slice_whole, Rect.mem_set_unit]
  exact Iff.rfl

/-- Every index of the result array is in the block of the point its row falls to. -/
theorem cover (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, -, -, e30, e31⟩ := idx_facts t
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; rw [e30, ht]; omega
  | ⟨1, _⟩ => show win2_3.index t (1 : Fin 2) * 64 ≤ (i 1).val ∧ (i 1).val < win2_3.index t (1 : Fin 2) * 64 + 64; rw [e31]; omega

/-- THE RESULT ARRAY after the region: the mean of the three input arrays as the region finds them. -/
theorem final (c : Dev nD) : (dat2 V c).arrAt 3 cfg2.N = comb (V c main_v1) (V c main_v18) (V c main_v33) :=
  (dat2 V c).arrAt_eq_of_cover 3 _ (fun t _ => flushed_eq V c t) cover

end Cert.Gnn.Region2

end
-- ==== Proof.Fold.lean ====
/-
  The idealized kernel program's result buffer, read back through its segments to the launch memory.

  The program runs  [reshape b] · region 0 (dense layer) · [reshape vals] · region 1 (edge weights) ·
  [36 host operations: two propagation steps] · region 2 (the mean).  The generated frame names the contents of every buffer
  at each boundary (`Gen.W1 … Gen.W6`): a stretch of host operations folds its operations over the contents before it, a region
  replaces its windows' arrays by what its write-backs leave and keeps every other buffer.  Reading the result buffer back:
  region 2 leaves the mean of three arrays it finds; the first of them is what region 0 left (no later segment writes it),
  the dense layer of the launch arrays; the other two are the host's two propagation steps of the rows of what region 1
  left, the edge weights of the launch arrays.  No segment writes an argument before it is read.
-/
import proofs.«157246_j53386443489751_2_alg».proof.Proof.Gen.KernelIdeal.Frame
import proofs.«157246_j53386443489751_2_alg».proof.Proof.Encoder
import proofs.«157246_j53386443489751_2_alg».proof.Proof.Region0
import proofs.«157246_j53386443489751_2_alg».proof.Proof.Region1
import proofs.«157246_j53386443489751_2_alg».proof.Proof.Region2
import Idealize.ShloMosaic.Lib.StableHlo.Run

set_option maxRecDepth 16384

noncomputable section

namespace Cert.Gnn.Fold

open Idealize.ShloMosaic Idealize.ShloMosaic.TcCoe Idealize.SL.Sem Idealize.ShloMosaic.StableHlo
open Idealize.ShloMosaic.Pipeline (Dat)
open Cert.KernelIdeal Cert.KernelIdeal.Gen Cert.Gnn

variable (m : (ℓ : Loc nD τ sig) → Buf (Elt Ideal) ℓ) (ρ : Dev nD → PrngReg)

/-! ## A buffer a stretch does not write keeps its contents -/

/-- The first stretch writes only the one-row bias. -/
theorem W1_of_ne (c : Dev nD) (b : Ref sig .tc) (hb : b ≠ main_v0) :
    W1 m ρ c (Proc.devRef .tc b) = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-- The second stretch writes only the one-row weights. -/
theorem W3_of_ne (c : Dev nD) (b : Ref sig .tc) (hb : b ≠ main_v2) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-- The third stretch does not write the dense layer's result. -/
theorem W5_main_v1 (c : Dev nD) : W5 m ρ c (Proc.devRef .tc main_v1) = W4 m ρ c (Proc.devRef .tc main_v1) :=
  StableHlo.after_of_forall_not_mem (b := Proc.devRef .tc main_v1) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-! ## The arguments as each region and the third stretch find them -/

theorem W2_main_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans
    (W1_of_ne m ρ c main_arg0 (by decide))

theorem W2_main_arg3 (c : Dev nD) : W2 m ρ c (Proc.devRef .tc main_arg3) = m ((c : Thread nD τ).loc main_arg3) :=
  (W2_of_ne m ρ c main_arg3 (by decide)).trans (W1_of_ne m ρ c main_arg3 (by decide))
theorem W2_main_arg4 (c : Dev nD) : W2 m ρ c (Proc.devRef .tc main_arg4) = m ((c : Thread nD τ).loc main_arg4) :=
  (W2_of_ne m ρ c main_arg4 (by decide)).trans (W1_of_ne m ρ c main_arg4 (by decide))
theorem W2_main_arg5 (c : Dev nD) : W2 m ρ c (Proc.devRef .tc main_arg5) = m ((c : Thread nD τ).loc main_arg5) :=
  (W2_of_ne m ρ c main_arg5 (by decide)).trans (W1_of_ne m ρ c main_arg5 (by decide))
theorem W2_main_arg6 (c : Dev nD) : W2 m ρ c (Proc.devRef .tc main_arg6) = m ((c : Thread nD τ).loc main_arg6) :=
  (W2_of_ne m ρ c main_arg6 (by decide)).trans (W1_of_ne m ρ c main_arg6 (by decide))

theorem W4_main_arg0 (c : Dev nD) : W4 m ρ c (Proc.devRef .tc main_arg0) = m ((c : Thread nD τ).loc main_arg0) :=
  (W4_of_ne m ρ c main_arg0 (by decide)).trans ((W3_of_ne m ρ c main_arg0 (by decide)).trans (W2_main_arg0 m ρ c))
theorem W4_main_arg5 (c : Dev nD) : W4 m ρ c (Proc.devRef .tc main_arg5) = m ((c : Thread nD τ).loc main_arg5) :=
  (W4_of_ne m ρ c main_arg5 (by decide)).trans ((W3_of_ne m ρ c main_arg5 (by decide)).trans (W2_main_arg5 m ρ c))
theorem W4_main_arg6 (c : Dev nD) : W4 m ρ c (Proc.devRef .tc main_arg6) = m ((c : Thread nD τ).loc main_arg6) :=
  (W4_of_ne m ρ c main_arg6 (by decide)).trans ((W3_of_ne m ρ c main_arg6 (by decide)).trans (W2_main_arg6 m ρ c))

/-! ## Region 0: the dense layer of the launch arrays -/

/-- The one-row bias region 0 finds is the bias vector recast. -/
theorem V1_main_v0 (c : Dev nD) :
    (V1 m ρ c main_v0 : S1x64.Idx → EReal) = shapeCast S1x64 (m ((c : Thread nD τ).loc main_arg2)) Facts₀.shapeCasts_S64_S1x64 := by
  show StableHlo.after hostOps0 (W0 m ρ c) (Proc.devRef .tc main_v0) = _
  after_results
  rfl

/-- What region 0 leaves in its result array. -/
theorem W2_main_v1 (c : Dev nD) :
    W2 m ρ c (Proc.devRef .tc main_v1) = dense (m ((c : Thread nD τ).loc main_arg0)) (m ((c : Thread nD τ).loc main_arg1))
      (shapeCast S1x64 (m ((c : Thread nD τ).loc main_arg2)) Facts₀.shapeCasts_S64_S1x64) := by
  refine (W2_arr m ρ c 3).trans ((Region0.final (V1 m ρ) c).trans ?_)
  rw [V1_main_v0 m ρ c]
  rw [show V1 m ρ c main_arg0 = m ((c : Thread nD τ).loc main_arg0) from W1_of_ne m ρ c main_arg0 (by decide),
    show V1 m ρ c main_arg1 = m ((c : Thread nD τ).loc main_arg1) from W1_of_ne m ρ c main_arg1 (by decide)]

/-! ## Region 1: the edge weights of the launch arrays -/

/-- The one-row weights region 1 finds are the weights vector recast. -/
theorem V3_main_v2 (c : Dev nD) :
    (V3 m ρ c main_v2 : S1x1200000.Idx → EReal) = shapeCast S1x1200000 (m ((c : Thread nD τ).loc main_arg3)) Facts₀.shapeCasts_S1200000_S1x1200000 := by
  show StableHlo.after hostOps1 (W2 m ρ c) (Proc.devRef .tc main_v2) = _
  after_results
  rw [W2_main_arg3 m ρ c]
  rfl

/-- What region 1 leaves in its result array. -/
theorem W4_main_v3 (c : Dev nD) :
    W4 m ρ c (Proc.devRef .tc main_v3) = edgeWeights (m ((c : Thread nD τ).loc main_arg3)) (m ((c : Thread nD τ).loc main_arg4)) := by
  refine (W4_arr m ρ c 2).trans ((Region1.final (V3 m ρ) c).trans ?_)
  rw [V3_main_v2 m ρ c]
  rw [show V3 m ρ c main_arg4 = m ((c : Thread nD τ).loc main_arg4) from
    (W3_of_ne m ρ c main_arg4 (by decide)).trans (W2_main_arg4 m ρ c)]
  rfl

/-! ## The third stretch: the two propagation steps -/

/-- The first propagation step's result, as region 2 finds it. -/
theorem V5_main_v18 (c : Dev nD) :
    V5 m ρ c main_v18 = spmm (rowOf 0 Facts₀.slices_S2x1200000_S1x1200000_0_0 (edgeWeights (m ((c : Thread nD τ).loc main_arg3)) (m ((c : Thread nD τ).loc main_arg4))))
      (m ((c : Thread nD τ).loc main_arg0)) (m ((c : Thread nD τ).loc main_arg5)) (m ((c : Thread nD τ).loc main_arg6)) := by
  show StableHlo.after hostOps2 (W4 m ρ c) (Proc.devRef .tc main_v18) = _
  after_results_simp
  rw [W4_main_v3 m ρ c, W4_main_arg0 m ρ c, W4_main_arg5 m ρ c, W4_main_arg6 m ρ c]
  rfl

/-- The second propagation step's result, as region 2 finds it. -/
theorem V5_main_v33 (c : Dev nD) :
    V5 m ρ c main_v33 = spmm (rowOf 1 Facts₀.slices_S2x1200000_S1x1200000_1_0 (edgeWeights (m ((c : Thread nD τ).loc main_arg3)) (m ((c : Thread nD τ).loc main_arg4))))
      (spmm (rowOf 0 Facts₀.slices_S2x1200000_S1x1200000_0_0 (edgeWeights (m ((c : Thread nD τ).loc main_arg3)) (m ((c : Thread nD τ).loc main_arg4))))
        (m ((c : Thread nD τ).loc main_arg0)) (m ((c : Thread nD τ).loc main_arg5)) (m ((c : Thread nD τ).loc main_arg6)))
      (m ((c : Thread nD τ).loc main_arg5)) (m ((c : Thread nD τ).loc main_arg6)) := by
  show StableHlo.after hostOps2 (W4 m ρ c) (Proc.devRef .tc main_v33) = _
  after_results_simp
  rw [W4_main_v3 m ρ c, W4_main_arg0 m ρ c, W4_main_arg5 m ρ c, W4_main_arg6 m ρ c]
  rfl

/-- The dense layer's result, as region 2 finds it. -/
theorem V5_main_v1 (c : Dev nD) :
    V5 m ρ c main_v1 = dense (m ((c : Thread nD τ).loc main_arg0)) (m ((c : Thread nD τ).loc main_arg1))
      (shapeCast S1x64 (m ((c : Thread nD τ).loc main_arg2)) Facts₀.shapeCasts_S64_S1x64) :=
  (W5_main_v1 m ρ c).trans ((W4_of_ne m ρ c main_v1 (by decide)).trans ((W3_of_ne m ρ c main_v1 (by decide)).trans (W2_main_v1 m ρ c)))

/-! ## The result buffer -/

/-- THE RESULT: after the last region the result buffer holds the encoder of the launch arrays. -/
theorem result_eq (c : Dev nD) :
    W6 m ρ c (Proc.devRef .tc main_v34) = encoder (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  refine (W6_arr m ρ c 3).trans ((Region2.final (V5 m ρ) c).trans ?_)
  rw [V5_main_v1 m ρ c, V5_main_v18 m ρ c, V5_main_v33 m ρ c]
  rfl

end Cert.Gnn.Fold

end
-- ==== Proof.Reference.lean ====
/-
  The idealized reference's result is the encoder of its arguments.

  The reference's generated run states its result as one composed term of the launch arrays:
      ((emb ·dot· Wᵀ + b broadcast) + spmm(v₀, emb)) + spmm(v₁, spmm(v₀, emb)),  divided by the word 3.0,
  with  v_l = where(u[l] + 0.7 ≥ 1, vals / 0.7, 0).  Against the encoder:
    * dividing by 3.0 is multiplying by the named 1/3, on every extended real (`mean_eq`);
    * the host's product with the transposed weight plus the broadcast bias is the dense layer, entry by entry (`dense_eq`);
    * the reference's edge weights of layer l are row l of the [2, E] edge weights (`edge_row`);
    * the two propagation steps are the same host operations, applied to equal operands.
-/
import proofs.«157246_j53386443489751_2_alg».proof.Proof.Gen.ReferenceIdeal.Run
import proofs.«157246_j53386443489751_2_alg».proof.Proof.Encoder
import proofs.«157246_j53386443489751_2_alg».proof.Proof.LibDenseLayer
import Idealize.ShloMosaic.Lib.ValueLayout
import Idealize.ShloMosaic.Lib.Pipeline.Value

noncomputable section

open scoped BigOperators

namespace Cert.Gnn.Reference

open Idealize.ShloMosaic Idealize.ShloMosaic.TcCoe Idealize.ShloMosaic.ValueIdx Idealize.ShloMosaic.DotInner Idealize.SL.Sem
open Cert.KernelIdeal Cert.KernelIdeal.Facts₀ Cert.Gnn

/-- The mean: the sum of the three embeddings divided by the word 3.0 is the sum times the named 1/3. -/
theorem mean_eq (fc x1 x2 : (⟨S100000x64, .f32⟩ : BufTy).Contents (Elt Ideal)) :
    Host.divf (F := Ideal) (addf (F := Ideal) (addf (F := Ideal) fc x1) x2)
      (broadcastInDim S100000x64 ![] bcast_S_S100000x64 (constant (F := Ideal) S_ .f32 0x40400000#32)) = comb fc x1 x2 := by
  funext i
  show Ideal.div ((fc i + x1 i) + x2 i)
    (broadcastInDim S100000x64 ![] bcast_S_S100000x64 (constant (F := Ideal) S_ .f32 0x40400000#32) i) = ((fc i + x1 i) + x2 i) * third
  rw [broadcastInDim_apply ![] bcast_S_S100000x64 _ i ix0 (fun a => a.elim0), constant_apply, div_three]

/-- The reference's product is rows by columns. -/
theorem plain_ref : Plain Cert.ReferenceIdeal.dot_S100000x64_S64x64_S100000x64_1_0_0_1_n_n :=
  plain_record Cert.ReferenceIdeal.dot_S100000x64_S64x64_S100000x64_1_0_0_1_n_n, S100000x64, S64x64

/-- The dense layer: the host's product with the transposed weight plus the bias broadcast down the rows. -/
theorem dense_eq (emb : (⟨S100000x64, .f32⟩ : BufTy).Contents (Elt Ideal)) (W : (⟨S64x64, .f32⟩ : BufTy).Contents (Elt Ideal))
    (b : (⟨S64, .f32⟩ : BufTy).Contents (Elt Ideal))
    (h1 : S64.BroadcastsInDim S1x64 ![1]) (h2 : S1x64.BroadcastsInDim S100000x64 ![0, 1]) :
    addf (F := Ideal) (φ := .f32) (Host.dotGeneral (F := Ideal) (φ₁ := .f32) (φ₂ := .f32) Cert.ReferenceIdeal.dot_S100000x64_S64x64_S100000x64_1_0_0_1_n_n none emb
        (transpose S64x64 [1, 0] W transposes_S64x64_p1_0_S64x64))
      (broadcastInDim S100000x64 ![0, 1] h2 (broadcastInDim S1x64 ![1] h1 b))
      = dense emb W (shapeCast S1x64 b shapeCasts_S64_S1x64) := by
  funext i
  obtain ⟨r, j, rfl⟩ : ∃ (r : Fin 100000) (j : Fin 64), i = ix2 r j := ⟨i 0, i 1, eq_ix2 i⟩
  rw [DenseLayer.dense_apply plain_ref, Cert.Gnn.dense_apply, shapeCast_a_1a_apply]
  refine congrArg₂ (· + ·) (Finset.sum_congr rfl fun k _ => ?_) rfl
  rw [transpose_ix2_apply]

/-- A float word broadcast to a vector reads the word everywhere. -/
theorem splat_apply (w : BitVec 32) (i : S1200000.Idx) :
    broadcastInDim S1200000 ![] bcast_S_S1200000 (constant (F := Ideal) S_ .f32 w) i = Ideal.ofBits .f32 w := by
  rw [broadcastInDim_apply ![] bcast_S_S1200000 _ i ix0 (fun a => a.elim0), constant_apply]

/-- The reference's edge weights of layer l are row l of the edge weights of both layers. -/
theorem edge_row (l : ℕ) (hl : l < 2) (hsl : S2x1200000.Slices ![l, 0] S1x1200000)
    (vals : (⟨S1200000, .f32⟩ : BufTy).Contents (Elt Ideal)) (u : (⟨S2x1200000, .f32⟩ : BufTy).Contents (Elt Ideal)) :
    select (cmpf .oge (addf (F := Ideal) (shapeCast S1200000 (extractStridedSlice S1x1200000 ![l, 0] u hsl) shapeCasts_S1x1200000_S1200000)
          (broadcastInDim S1200000 ![] bcast_S_S1200000 (constant (F := Ideal) S_ .f32 0x3F333333#32)))
        (broadcastInDim S1200000 ![] bcast_S_S1200000 (constant (F := Ideal) S_ .f32 0x3F800000#32)))
      (Host.divf (F := Ideal) vals (broadcastInDim S1200000 ![] bcast_S_S1200000 (constant (F := Ideal) S_ .f32 0x3F333333#32)))
      (broadcastInDim S1200000 ![] bcast_S_S1200000 (id (constant (F := Ideal) S_ .f32 0x00000000#32)))
      = rowOf l hsl (edgeWeights vals u) := by
  funext i
  obtain ⟨e, rfl⟩ : ∃ e : Fin 1200000, i = ix1 e := ⟨i 0, eq_ix1 i⟩
  have hu : shapeCast S1200000 (extractStridedSlice S1x1200000 ![l, 0] u hsl) shapeCasts_S1x1200000_S1200000 (ix1 e) = u (ix2 (⟨l, hl⟩ : Fin 2) e) := by
    rw [shapeCast_1a_a_apply, slice2_axis0_apply l u hsl (0 : Fin 1) e (⟨l, hl⟩ : Fin 2) (by simp)]
  have hr : rowOf l hsl (edgeWeights vals u) (ix1 e) = dropAt (vals (ix1 e)) (u (ix2 (⟨l, hl⟩ : Fin 2) e)) := by
    unfold rowOf edgeWeights
    rw [shapeCast_1a_a_apply, slice2_axis0_apply l _ hsl (0 : Fin 1) e (⟨l, hl⟩ : Fin 2) (by simp), drop_apply, shapeCast_a_1a_apply]
  rw [hr]
  show Scalar.select (Ideal.cmp .oge (shapeCast S1200000 (extractStridedSlice S1x1200000 ![l, 0] u hsl) shapeCasts_S1x1200000_S1200000 (ix1 e)
        + broadcastInDim S1200000 ![] bcast_S_S1200000 (constant (F := Ideal) S_ .f32 0x3F333333#32) (ix1 e))
        (broadcastInDim S1200000 ![] bcast_S_S1200000 (constant (F := Ideal) S_ .f32 0x3F800000#32) (ix1 e)))
      (Ideal.div (vals (ix1 e)) (broadcastInDim S1200000 ![] bcast_S_S1200000 (constant (F := Ideal) S_ .f32 0x3F333333#32) (ix1 e)))
      (broadcastInDim S1200000 ![] bcast_S_S1200000 (constant (F := Ideal) S_ .f32 0x00000000#32) (ix1 e)) = _
  rw [hu, splat_apply, splat_apply, splat_apply]
  rfl

/-- THE REFERENCE'S RESULT is the encoder of its arguments. -/
theorem result_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v52 (F := Ideal) m c
      = encoder (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6)) := by
  unfold encoder
  rw [← mean_eq, ← dense_eq _ _ _ Cert.ReferenceIdeal.Facts₀.bcast_S64_S1x64_1 Cert.ReferenceIdeal.Facts₀.bcast_S1x64_S100000x64_0_1,
    ← edge_row 0 (by decide) slices_S2x1200000_S1x1200000_0_0, ← edge_row 1 (by decide) slices_S2x1200000_S1x1200000_1_0]
  unfold Cert.ReferenceIdeal.Value.res_main_v52 spmm
  rfl

end Cert.Gnn.Reference

end
-- ==== Proof.lean ====
/-
  A two-layer graph message-passing encoder — a dense layer, two steps of dropout-weighted neighbour aggregation, the mean of
  the three embeddings — as three pipelined kernels among host gathers and scatter-adds, against its plain reference.

  On the extended reals both programs compute ONE function of their seven arguments (Proof/Encoder.lean):
      ((emb · Wᵀ + b)  +  x₁  +  x₂) · (1/3),    x₁ = spmm(v[0], emb),   x₂ = spmm(v[1], x₁),
      v[l, e] = vals[e] / 0.7  if  u[l, e] + 0.7 ≥ 1  else 0.
  The kernel program multiplies by a constant named 1/3 where the reference divides by 3.0: the same on every extended real
  (the one law that joins the two sides; no finiteness is used).  A change of float format is the identity at the ideal
  instance, a matrix unit started from zero is the plain sum of products, and the propagation steps are the same host
  operations in both programs, so they are never opened.

    * Proof/KernelRun.lean — the kernel program's run with its result buffer kept;
    * Proof/Region0,1,2.lean — each region's result array as one whole-array function of the arrays it finds;
    * Proof/Fold.lean — the result buffer read back through the segments to the launch arrays;
    * Proof/Reference.lean — the reference's result term is the same function.
-/
import proofs.«157246_j53386443489751_2_alg».proof.Defs
import proofs.«157246_j53386443489751_2_alg».proof.Proof.Gen.Kernel
import proofs.«157246_j53386443489751_2_alg».proof.Proof.Gen.Kernel.Frame
import proofs.«157246_j53386443489751_2_alg».proof.Proof.Gen.KernelIdeal
import proofs.«157246_j53386443489751_2_alg».proof.Proof.Gen.KernelIdeal.Frame
import proofs.«157246_j53386443489751_2_alg».proof.Proof.Gen.ReferenceIdeal
import proofs.«157246_j53386443489751_2_alg».proof.Proof.Gen.ReferenceIdeal.Run
import proofs.«157246_j53386443489751_2_alg».proof.Proof.Gen.Pre_finite_inputs
import proofs.«157246_j53386443489751_2_alg».proof.Proof.KernelRun
import proofs.«157246_j53386443489751_2_alg».proof.Proof.Fold
import proofs.«157246_j53386443489751_2_alg».proof.Proof.Reference
import Idealize.ShloMosaic.Adequacy
import Idealize.ShloMosaic.Init

noncomputable section

namespace Cert.Proof

open Idealize.ShloMosaic Idealize.ShloMosaic.TcCoe Idealize.SL.Sem

/-- The kernel program as printed runs, its arguments unchanged. -/
theorem frame_kernel : Cert.frame_Kernel := fun m ρ _ => Cert.Kernel.Gen.frame m ρ

/-- The idealized kernel program runs, its arguments unchanged. -/
theorem frame_kernelIdeal : Cert.frame_KernelIdeal := fun m ρ _ => Cert.KernelIdeal.Gen.frame m ρ

/-- The idealized reference runs, its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: the scale's float word is named, and the name denotes the rational 1/3. -/
theorem preserves : Cert.preserves_Kernel_KernelIdeal :=
  IdealRules.named_const.statement Cert.KernelIdeal.κ "inv_3" .f32 0x3EAAAAAB#32 ((1 / 3 : ℝ) : EReal) rfl

/-- From memories agreeing on the arguments both idealized programs end with the encoder of the arguments in their
    result buffers. -/
theorem algebraic : Cert.algebraic_KernelIdeal_ReferenceIdeal := by
  intro m ρ m' ρ' _ hagree
  refine ⟨fun c => Cert.Gnn.encoder
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.Gnn.Fold.result_eq m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6⟩ := hagree c
    rw [Cert.Gnn.Reference.result_eq m' c, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
